-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩
abbrev S4000 : Shape := ⟨1, ![4000]⟩
abbrev S4000x1 : Shape := ⟨2, ![4000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000, .f32⟩
  | 5 => ⟨S100000x1, .f32⟩
  | 6 => ⟨S100000x1, .f32⟩
  | 7 => ⟨S100000x64, .f32⟩
  | 8 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its result named. The program is nine segments — host operations, then the first
  product, host operations (the first aggregation), the activation and the second product back to back, host operations
  (the second aggregation), and the log-softmax — and every weakly fair execution of it ends with each TensorCore's
  unscoped buffers at the contents `W9`: the launch memory folded through the host stretches and through what each
  pallas_call's write-backs leave. Read at the result buffer this says what the program returns; read at an argument it
  says the argument is unchanged.
-/
import proofs.«118945_j72206990181016_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at `W9`'s contents there
    and the six argument arrays as launched: the launch over the nine segments, the last thread state read against
    the final memory at the result and at each argument. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.GcnSpec.lean ====
/-
  The entrywise formulas of the two-layer graph convolution's dense stages, on the extended reals.
  • A layer's activation: the aggregated entry plus its column's bias, cut off below at zero (the word 0x00000000).
  • The output layer's log-softmax of a row z: with m the largest entry of the row (the fold of max from the word
    0xFF800000, which is -∞), the entry is (z_c - m) - log Σ_k exp (z_k - m).
-/
import Idealize.ShloMosaic.PureOps.Ideal

noncomputable section

namespace GcnSpec

open Idealize.ShloMosaic

/-- relu (s + b). -/
def biasRelu (s b : EReal) : EReal := max (s + b) (Ideal.ofBits .f32 0x00000000#32)

/-- The largest entry of a row, from -∞. -/
def rowMax {n : ℕ} (z : Fin n → EReal) : EReal :=
  (Finset.univ : Finset (Fin n)).fold max (Ideal.ofBits .f32 0xFF800000#32) z

/-- The row's log-softmax at column `c`. -/
def rowLogSoftmax {n : ℕ} (z : Fin n → EReal) (c : Fin n) : EReal :=
  (z c - rowMax z) - Ideal.log (∑ k : Fin n, Ideal.exp (z k - rowMax z))

end GcnSpec

end
-- ==== Proof.Payloads.lean ====
/-
  What each kernel body stores into its output tile, entry by entry, at the exact values — a tile being 4000 consecutive
  rows of the node axis.
  • The two products (x·W₁ and h·W₂): the casts to bf16 are the identity on the exact values and the matrix unit
    accumulates into zero, so entry (r, c) of the tile is Σ_k lhs(r, k) · rhs(k, c).
  • The first layer's activation: entry (r, c) is relu (agg(r, c) + b₁(c)), the bias row read at its one row.
  • The output layer: with z(r, ·) = agg(r, ·) + b₂(·), entry (r, c) is the log-softmax of row r at column c — the row's
    maximum and the row's sum of exponentials are lane reductions over the 64 columns, each kept as a column and put
    back beside every entry of its row.
-/
import proofs.«118945_j72206990181016_1_alg».proof.Proof.Gen.KernelIdeal.Skeleton
import proofs.«118945_j72206990181016_1_alg».proof.Proof.LibPlainMatmul
import proofs.«118945_j72206990181016_1_alg».proof.Proof.LibKeepdimsColumn
import proofs.«118945_j72206990181016_1_alg».proof.Proof.LibRowReduce
import proofs.«118945_j72206990181016_1_alg».proof.Proof.GcnSpec
import Idealize.ShloMosaic.Lib.ValueLayout

noncomputable section

namespace Cert.KernelIdeal.Tile

open Idealize.ShloMosaic Idealize.ShloMosaic.ValueIdx Cert.KernelIdeal Cert.KernelIdeal.Gen

/-- The first product's tile at (r, c): Σ_k x(r, k) · W₁(k, c). -/
theorem product128_at (x0 : FVec Ideal S4000x128 .f32) (x1 : FVec Ideal S128x128 .f32) (r : Fin 4000) (c : Fin 128) :
    k0_pay1 (F := Ideal) x0 x1 (ix2 r c) = ∑ k : Fin 128, x0 (ix2 r k) * x1 (ix2 k c) := by
  unfold k0_pay1
  exact PlainMatmul.apply_zero (M := 4000) (K := 128) (N := 128) _ _ r c

/-- The second product's tile at (r, c): Σ_k h(r, k) · W₂(k, c). -/
theorem product64_at (x0 : FVec Ideal S4000x128 .f32) (x1 : FVec Ideal S128x64 .f32) (r : Fin 4000) (c : Fin 64) :
    k2_pay1 (F := Ideal) x0 x1 (ix2 r c) = ∑ k : Fin 128, x0 (ix2 r k) * x1 (ix2 k c) := by
  unfold k2_pay1
  refine (PlainMatmul.apply_zero (M := 4000) (K := 128) (N := 64) _ _ r c).trans ?_
  refine Finset.sum_congr rfl fun k _ => ?_
  show shapeCast S4000x128 x0 shapeCasts_S4000x128_S4000x128 (ix2 r k) * x1 (ix2 k c) = _
  rw [shapeCast_self]

/-- The activation's tile at (r, c): relu (agg(r, c) + b₁(c)). -/
theorem biasRelu_at (x0 : FVec Ideal S4000x128 .f32) (x1 : FVec Ideal S1x128 .f32) (r : Fin 4000) (c : Fin 128) :
    k1_pay1 (F := Ideal) x0 x1 (ix2 r c) = GcnSpec.biasRelu (x0 (ix2 r c)) (x1 (ix2 (0 : Fin 1) c)) := by
  unfold k1_pay1 GcnSpec.biasRelu
  try dsimp only
  rw [maximumf_apply, addf_apply, shapeCast_self, shapeCast_self, broadcastTo_1b_ab_apply, broadcast_apply]
  rfl

/-- The output tile at (r, c): the log-softmax of the row agg(r, ·) + b₂(·) at column c. -/
theorem logSoftmax_at (x0 : FVec Ideal S4000x64 .f32) (x1 : FVec Ideal S1x64 .f32) (r : Fin 4000) (c : Fin 64) :
    k3_pay1 (F := Ideal) x0 x1 (ix2 r c)
      = GcnSpec.rowLogSoftmax (fun k : Fin 64 => x0 (ix2 r k) + x1 (ix2 (0 : Fin 1) k)) c := by
  unfold k3_pay1
  try dsimp only
  -- the biased rows
  generalize hZ : addf (shapeCast S4000x64 x0 shapeCasts_S4000x64_S4000x64)
      (broadcastTo S4000x64 (shapeCast S1x64 x1 shapeCasts_S1x64_S1x64) broadcasts_S1x64_S4000x64) = Z
  have hz : ∀ k : Fin 64, Z (ix2 r k) = x0 (ix2 r k) + x1 (ix2 (0 : Fin 1) k) := fun k => by
    rw [← hZ, addf_apply, shapeCast_self, shapeCast_self, broadcastTo_1b_ab_apply]
  -- each row's maximum
  generalize hM : multiReduction .maximumf [1] S4000 Z 0xFF800000#32 reduces_S4000x64_S4000 (.inl rfl) rfl = Mx
  have hm : Mx (ix1 r) = GcnSpec.rowMax (fun k : Fin 64 => x0 (ix2 r k) + x1 (ix2 (0 : Fin 1) k)) := by
    rw [← hM]
    refine (RowReduce.laneMax_at Z 0xFF800000#32 reduces_S4000x64_S4000 (.inl rfl) rfl r).trans ?_
    unfold GcnSpec.rowMax
    exact congrArg (Finset.fold max (Ideal.ofBits .f32 0xFF800000#32) · (Finset.univ : Finset (Fin 64))) (funext hz)
  -- the rows shifted by their maxima
  generalize hS : subf Z (broadcastTo S4000x64 (shapeCast S4000x1 Mx shapeCasts_S4000_S4000x1) broadcasts_S4000x1_S4000x64) = Sh
  have hs : ∀ k : Fin 64, Sh (ix2 r k)
      = (x0 (ix2 r k) + x1 (ix2 (0 : Fin 1) k)) - GcnSpec.rowMax (fun k : Fin 64 => x0 (ix2 r k) + x1 (ix2 (0 : Fin 1) k)) := fun k => by
    rw [← hS, subf_apply, KeepdimsColumn.broadcastTo_a1_ab_apply, KeepdimsColumn.shapeCast_a_a1_apply, hz, hm]
  -- each row's sum of exponentials
  generalize hL : multiReduction .add [1] S4000 (exp Sh) 0x00000000#32 reduces_S4000x64_S4000 (.inl rfl) rfl = Sm
  have hl : Sm (ix1 r) = ∑ k : Fin 64, Ideal.exp ((x0 (ix2 r k) + x1 (ix2 (0 : Fin 1) k))
      - GcnSpec.rowMax (fun k : Fin 64 => x0 (ix2 r k) + x1 (ix2 (0 : Fin 1) k))) := by
    rw [← hL]
    refine (RowReduce.laneSum_at (exp Sh) 0x00000000#32 reduces_S4000x64_S4000 (.inl rfl) rfl r).trans ?_
    refine Finset.sum_congr rfl fun k _ => ?_
    show Ideal.exp (Sh (ix2 r k)) = _
    rw [hs]
  rw [subf_apply, hs, KeepdimsColumn.broadcastTo_a1_ab_apply]
  show _ - Ideal.log (shapeCast S4000x1 Sm shapeCasts_S4000_S4000x1 (ix2 r (0 : Fin 1))) = _
  rw [KeepdimsColumn.shapeCast_a_a1_apply, hl]
  rfl

end Cert.KernelIdeal.Tile

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«118945_j72206990181016_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.FirstProduct.lean ====
/-
  The first layer's product as one array. The pallas_call walks 25 tiles of 4000 rows; at tile t the body reads rows
  4000·t … 4000·t + 3999 of x (all 128 columns) and the whole of W₁, and writes the product of the two back to the same
  rows of the result. Row 4000·t + r of the result therefore holds Σ_k x(4000·t + r, k) · W₁(k, c) at column c, which is
  entry (4000·t + r, c) of the one whole product x·W₁ — the tiling does not show at the exact values, since an entry of a
  product depends on one row of the left operand only. Every row lies in exactly the tile t = row / 4000, so the 25
  write-backs fill the array.
-/
import proofs.«118945_j72206990181016_1_alg».proof.Proof.Gen.KernelIdeal.Frame
import proofs.«118945_j72206990181016_1_alg».proof.Proof.Payloads
import proofs.«118945_j72206990181016_1_alg».proof.Proof.LibPlainDot
import Idealize.ShloMosaic.Lib.Pipeline.Value

set_option maxRecDepth 16384

noncomputable section

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen

/-- The whole product of an array of 100000 rows with a 128×128 matrix. -/
abbrev product1 (a0 : FVec Ideal S100000x128 .f32) (a2 : FVec Ideal S128x128 .f32) : FVec Ideal S100000x128 .f32 :=
  Host.dotGeneral (F := Ideal) (DotDims.plain 100000 128 128) none a0 a2

/-- One tile of the product: if the left block holds rows `4000·tv + r` of `A0` and the right block all of `A2`, the
    body's value at `y` is the whole product at the array index `i` lying `4000·tv` rows further down. -/
theorem product1_tile (A0 : FVec Ideal S100000x128 .f32) (A2 : FVec Ideal S128x128 .f32)
    (x0 : FVec Ideal S4000x128 .f32) (x1 : FVec Ideal S128x128 .f32) (tv : Nat) (ht : tv < 25)
    (hx0 : ∀ (r : Fin 4000) (k : Fin 128), x0 (ix2 r k) = A0 (ix2 (⟨tv * 4000 + r.val, by omega⟩ : Fin 100000) k))
    (hx1 : ∀ (k : Fin 128) (c : Fin 128), x1 (ix2 k c) = A2 (ix2 k c))
    (y : S4000x128.Idx) (i : S100000x128.Idx) (hi0 : (i 0).val = tv * 4000 + (y 0).val) (hi1 : (i 1).val = (y 1).val) :
    k0_pay1 (F := Ideal) x0 x1 y = product1 A0 A2 i := by
  obtain ⟨r, c, rfl⟩ : ∃ (r : Fin 4000) (c : Fin 128), y = ix2 r c := ⟨y 0, y 1, eq_ix2 y⟩
  have hi : i = ix2 (⟨tv * 4000 + r.val, by omega⟩ : Fin 100000) c :=
    funext fun a => Fin.ext (by match a with | ⟨0, _⟩ => exact hi0 | ⟨1, _⟩ => exact hi1)
  rw [hi, Tile.product128_at]
  refine Eq.trans ?_ (PlainDot.apply none A0 A2 _ c).symm
  exact Finset.sum_congr rfl fun k _ => by rw [hx0, hx1]

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the left operand's and the result's tiles move down the rows with the point,
    the right operand stays. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the whole product of the arrays as the region finds them. -/
theorem flushed0 (c : Dev nD) (t : Fin cfg0.N) :
    (dat0 V c).flushed 2 t = ((cfg0.win 2).blk t).view.read (Elt Ideal) (product1 (V c main_arg0) (V c main_arg2)) := by
  show (cfg0.win 2).cut (grid0.coords t) ((dat0 V c).after 2 t) = _
  rw [after0_2]
  unfold out0_2
  rw [View.canon_unit_zero zeroOffsets]
  simp only [View.ld_unit_zero (S := S4000x128) zeroOffsets, View.ld_unit_zero (S := S128x128) zeroOffsets]
  obtain ⟨e0, e1, e2, e3, e4, e5⟩ := tiles0 t
  have hN : cfg0.N = 25 := N_0
  have htv : t.val < 25 := hN ▸ t.isLt
  funext j
  refine product1_tile (V c main_arg0) (V c main_arg2) _ _ t.val htv (fun r k => ?_) (fun k c' => ?_) j _ ?_ ?_
  · show V c main_arg0 (((cfg0.win 0).blk t).view.emb (ix2 r k)) = _
    refine congrArg (V c main_arg0) (funext fun a => Fin.ext ?_)
    match a with
    | ⟨0, _⟩ => show win0_0.index t (0 : Fin 2) * 4000 + 1 * r.val = t.val * 4000 + r.val; omega
    | ⟨1, _⟩ => show win0_0.index t (1 : Fin 2) * 128 + 1 * k.val = k.val; omega
  · show V c main_arg2 (((cfg0.win 1).blk t).view.emb (ix2 k c')) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * c'.val = c'.val; omega
  · show win0_2.index t (0 : Fin 2) * 4000 + 1 * (j 0).val = t.val * 4000 + (j 0).val; omega
  · show win0_2.index t (1 : Fin 2) * 128 + 1 * (j 1).val = (j 1).val; omega

/-- An index of the result is in point `t`'s tile iff each coordinate is in the tile's range on its axis. -/
theorem mem_tile0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Every row is in the tile `row / 4000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e4, e5⟩ := tiles0 t
  refine ⟨t, flush0_2 t, ?_⟩
  rw [mem_tile0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The result array after the region: the whole product of the arrays as the region finds them. -/
theorem final0 (c : Dev nD) : (dat0 V c).arrAt 2 cfg0.N = product1 (V c main_arg0) (V c main_arg2) :=
  (dat0 V c).arrAt_eq_of_cover 2 _ (fun t _ => flushed0 V c t) cover0

end Cert.KernelIdeal.Layer

end
-- ==== Proof.Activation.lean ====
/-
  The first layer's activation as one array. The pallas_call walks 25 tiles of 4000 rows; at tile t the body reads rows
  4000·t … 4000·t + 3999 of the aggregated array and the bias as a one-row matrix, and writes relu (agg + bias) back to the
  same rows of the result. The operation is entrywise in the row, so row 4000·t + r of the result holds
  relu (agg(4000·t + r, c) + b₁(c)) at column c whatever the tiling, and every row lies in exactly the tile row / 4000.
-/
import proofs.«118945_j72206990181016_1_alg».proof.Proof.Gen.KernelIdeal.Frame
import proofs.«118945_j72206990181016_1_alg».proof.Proof.Payloads
import Idealize.ShloMosaic.Lib.Pipeline.Value

set_option maxRecDepth 16384

noncomputable section

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen

/-- relu (agg + bias row), entry by entry, over the whole 100000×128 array. -/
abbrev activation (a : FVec Ideal S100000x128 .f32) (b : FVec Ideal S1x128 .f32) : FVec Ideal S100000x128 .f32 :=
  fun i => GcnSpec.biasRelu (a i) (b (ix2 (0 : Fin 1) (⟨(i 1).val, idx2_lt1 i⟩ : Fin 128)))

/-- One tile of the activation: if the first block holds rows `4000·tv + r` of `A` and the second the one row of `B`,
    the body's value at `y` is the activation at the array index `i` lying `4000·tv` rows further down. -/
theorem activation_tile (A : FVec Ideal S100000x128 .f32) (B : FVec Ideal S1x128 .f32)
    (x0 : FVec Ideal S4000x128 .f32) (x1 : FVec Ideal S1x128 .f32) (tv : Nat) (ht : tv < 25)
    (hx0 : ∀ (r : Fin 4000) (k : Fin 128), x0 (ix2 r k) = A (ix2 (⟨tv * 4000 + r.val, by omega⟩ : Fin 100000) k))
    (hx1 : ∀ (k : Fin 128), x1 (ix2 (0 : Fin 1) k) = B (ix2 (0 : Fin 1) k))
    (y : S4000x128.Idx) (i : S100000x128.Idx) (hi0 : (i 0).val = tv * 4000 + (y 0).val) (hi1 : (i 1).val = (y 1).val) :
    k1_pay1 (F := Ideal) x0 x1 y = activation A B i := by
  obtain ⟨r, c, rfl⟩ : ∃ (r : Fin 4000) (c : Fin 128), y = ix2 r c := ⟨y 0, y 1, eq_ix2 y⟩
  have hi : i = ix2 (⟨tv * 4000 + r.val, by omega⟩ : Fin 100000) c :=
    funext fun a => Fin.ext (by match a with | ⟨0, _⟩ => exact hi0 | ⟨1, _⟩ => exact hi1)
  rw [hi, Tile.biasRelu_at, hx0, hx1]

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the grid: the aggregated array's and the result's tiles move down the rows with the
    point, the bias row stays. -/
theorem tiles1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the activation of the arrays as the region finds them. -/
theorem flushed1 (c : Dev nD) (t : Fin cfg1.N) :
    (dat1 V c).flushed 2 t = ((cfg1.win 2).blk t).view.read (Elt Ideal) (activation (V c main_v43) (V c main_v44)) := by
  show (cfg1.win 2).cut (grid1.coords t) ((dat1 V c).after 2 t) = _
  rw [after1_2]
  unfold out1_2
  rw [View.canon_unit_zero zeroOffsets1]
  simp only [View.ld_unit_zero (S := S4000x128) zeroOffsets1, View.ld_unit_zero (S := S1x128) zeroOffsets1]
  obtain ⟨e0, e1, e2, e3, e4, e5⟩ := tiles1 t
  have hN : cfg1.N = 25 := N_1
  have htv : t.val < 25 := hN ▸ t.isLt
  funext j
  refine activation_tile (V c main_v43) (V c main_v44) _ _ t.val htv (fun r k => ?_) (fun k => ?_) j _ ?_ ?_
  · show V c main_v43 (((cfg1.win 0).blk t).view.emb (ix2 r k)) = _
    refine congrArg (V c main_v43) (funext fun a => Fin.ext ?_)
    match a with
    | ⟨0, _⟩ => show win1_0.index t (0 : Fin 2) * 4000 + 1 * r.val = t.val * 4000 + r.val; omega
    | ⟨1, _⟩ => show win1_0.index t (1 : Fin 2) * 128 + 1 * k.val = k.val; omega
  · show V c main_v44 (((cfg1.win 1).blk t).view.emb (ix2 (0 : Fin 1) k)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show win1_2.index t (0 : Fin 2) * 4000 + 1 * (j 0).val = t.val * 4000 + (j 0).val; omega
  · show win1_2.index t (1 : Fin 2) * 128 + 1 * (j 1).val = (j 1).val; omega

/-- An index of the result is in point `t`'s tile iff each coordinate is in the tile's range on its axis. -/
theorem mem_tile1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v45).slice (win1_2.rect t)).set ↔ _
  rw [View.set_slice_whole, Rect.mem_set_unit]
  exact Iff.rfl

/-- Every row is in the tile `row / 4000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e4, e5⟩ := tiles1 t
  refine ⟨t, flush1_2 t, ?_⟩
  rw [mem_tile1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The result array after the region: the activation of the arrays as the region finds them. -/
theorem final1 (c : Dev nD) : (dat1 V c).arrAt 2 cfg1.N = activation (V c main_v43) (V c main_v44) :=
  (dat1 V c).arrAt_eq_of_cover 2 _ (fun t _ => flushed1 V c t) cover1

end Cert.KernelIdeal.Layer

end
-- ==== Proof.SecondProduct.lean ====
/-
  The second layer's product as one array. As for the first product, the pallas_call walks 25 tiles of 4000 rows of the
  activation against the whole of W₂; row 4000·t + r of the result holds Σ_k h(4000·t + r, k) · W₂(k, c) at column c, which
  is entry (4000·t + r, c) of the one whole product h·W₂, and every row lies in exactly the tile row / 4000.
-/
import proofs.«118945_j72206990181016_1_alg».proof.Proof.Gen.KernelIdeal.Frame
import proofs.«118945_j72206990181016_1_alg».proof.Proof.Payloads
import proofs.«118945_j72206990181016_1_alg».proof.Proof.LibPlainDot
import Idealize.ShloMosaic.Lib.Pipeline.Value

set_option maxRecDepth 16384

noncomputable section

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen

/-- The whole product of an array of 100000 rows of 128 entries with a 128×64 matrix. -/
abbrev product2 (a0 : FVec Ideal S100000x128 .f32) (a2 : FVec Ideal S128x64 .f32) : FVec Ideal S100000x64 .f32 :=
  Host.dotGeneral (F := Ideal) (DotDims.plain 100000 128 64) none a0 a2

/-- One tile of the product: if the left block holds rows `4000·tv + r` of `A0` and the right block all of `A2`, the
    body's value at `y` is the whole product at the array index `i` lying `4000·tv` rows further down. -/
theorem product2_tile (A0 : FVec Ideal S100000x128 .f32) (A2 : FVec Ideal S128x64 .f32)
    (x0 : FVec Ideal S4000x128 .f32) (x1 : FVec Ideal S128x64 .f32) (tv : Nat) (ht : tv < 25)
    (hx0 : ∀ (r : Fin 4000) (k : Fin 128), x0 (ix2 r k) = A0 (ix2 (⟨tv * 4000 + r.val, by omega⟩ : Fin 100000) k))
    (hx1 : ∀ (k : Fin 128) (c : Fin 64), x1 (ix2 k c) = A2 (ix2 k c))
    (y : S4000x64.Idx) (i : S100000x64.Idx) (hi0 : (i 0).val = tv * 4000 + (y 0).val) (hi1 : (i 1).val = (y 1).val) :
    k2_pay1 (F := Ideal) x0 x1 y = product2 A0 A2 i := by
  obtain ⟨r, c, rfl⟩ : ∃ (r : Fin 4000) (c : Fin 64), y = ix2 r c := ⟨y 0, y 1, eq_ix2 y⟩
  have hi : i = ix2 (⟨tv * 4000 + r.val, by omega⟩ : Fin 100000) c :=
    funext fun a => Fin.ext (by match a with | ⟨0, _⟩ => exact hi0 | ⟨1, _⟩ => exact hi1)
  rw [hi, Tile.product64_at]
  refine Eq.trans ?_ (PlainDot.apply none A0 A2 _ c).symm
  exact Finset.sum_congr rfl fun k _ => by rw [hx0, hx1]

variable (V : (c : Dev nD) → (b : Ref sig .tc) → Buf (Elt Ideal) ((c : Thread nD τ).loc b))

theorem zeroOffsets2 : (![0, 0] : Fin 2 → Nat) = fun _ => 0 := funext fun a => by fin_cases a <;> rfl

/-- The printed index maps over the grid: the activation's and the result's tiles move down the rows with the point,
    the weight matrix stays. -/
theorem tiles2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is tile `t` of the whole product of the arrays as the region finds them. -/
theorem flushed2 (c : Dev nD) (t : Fin cfg2.N) :
    (dat2 V c).flushed 2 t = ((cfg2.win 2).blk t).view.read (Elt Ideal) (product2 (V c main_v45) (V c main_arg4)) := by
  show (cfg2.win 2).cut (grid2.coords t) ((dat2 V c).after 2 t) = _
  rw [after2_2]
  unfold out2_2
  rw [View.canon_unit_zero zeroOffsets2]
  simp only [View.ld_unit_zero (S := S4000x128) zeroOffsets2, View.ld_unit_zero (S := S128x64) zeroOffsets2]
  obtain ⟨e0, e1, e2, e3, e4, e5⟩ := tiles2 t
  have hN : cfg2.N = 25 := N_2
  have htv : t.val < 25 := hN ▸ t.isLt
  funext j
  refine product2_tile (V c main_v45) (V c main_arg4) _ _ t.val htv (fun r k => ?_) (fun k c' => ?_) j _ ?_ ?_
  · show V c main_v45 (((cfg2.win 0).blk t).view.emb (ix2 r k)) = _
    refine congrArg (V c main_v45) (funext fun a => Fin.ext ?_)
    match a with
    | ⟨0, _⟩ => show win2_0.index t (0 : Fin 2) * 4000 + 1 * r.val = t.val * 4000 + r.val; omega
    | ⟨1, _⟩ => show win2_0.index t (1 : Fin 2) * 128 + 1 * k.val = k.val; omega
  · show V c main_arg4 (((cfg2.win 1).blk t).view.emb (ix2 k c')) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * c'.val = c'.val; omega
  · show win2_2.index t (0 : Fin 2) * 4000 + 1 * (j 0).val = t.val * 4000 + (j 0).val; omega
  · show win2_2.index t (1 : Fin 2) * 64 + 1 * (j 1).val = (j 1).val; omega

/-- An index of the result is in point `t`'s tile iff each coordinate is in the tile's range on its axis. -/
theorem mem_tile2 (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v46).slice (win2_2.rect t)).set ↔ _
  rw [View.set_slice_whole, Rect.mem_set_unit]
  exact Iff.rfl

/-- Every row is in the tile `row / 4000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, e4, e5⟩ := tiles2 t
  refine ⟨t, flush2_2 t, ?_⟩
  rw [mem_tile2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- The result array after the region: the whole product of the arrays as the region finds them. -/
theorem final2 (c : Dev nD) : (dat2 V c).arrAt 2 cfg2.N = product2 (V c main_v45) (V c main_arg4) :=
  (dat2 V c).arrAt_eq_of_cover 2 _ (fun t _ => flushed2 V c t) cover2

end Cert.KernelIdeal.Layer

end
-- ==== Proof.OutputLayer.lean ====
/-
  The output layer as one array. The pallas_call walks 25 tiles of 4000 rows; at tile t the body reads rows
  4000·t … 4000·t + 3999 of the second aggregation (all 64 columns) and the bias as a one-row matrix, and writes each
  row's log-softmax back to the same rows of the result. A row's log-softmax depends on that row only, and a tile holds
  whole rows, so row 4000·t + r of the result is the log-softmax of the row agg₂(4000·t + r, ·) + b₂(·) whatever the
  tiling; every row lies in exactly the tile row / 4000.
-/
import proofs.«118945_j72206990181016_1_alg».proof.Proof.Gen.KernelIdeal.Frame
import proofs.«118945_j72206990181016_1_alg».proof.Proof.Payloads
import Idealize.ShloMosaic.Lib.Pipeline.Value

set_option maxRecDepth 16384

noncomputable section

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen

/-- The log-softmax of every row of (agg + bias row), over the whole 100000×64 array. -/
abbrev outLayer (a : FVec Ideal S100000x64 .f32) (b : FVec Ideal S1x64 .f32) : FVec Ideal S100000x64 .f32 :=
  fun i => GcnSpec.rowLogSoftmax (fun k : Fin 64 => a (ix2 (⟨(i 0).val, idx2_lt0 i⟩ : Fin 100000) k) + b (ix2 (0 : Fin 1) k))
    (⟨(i 1).val, idx2_lt1 i⟩ : Fin 64)

/-- One tile of the output layer: if the first block holds rows `4000·tv + r` of `A` and the second the one row of `B`,
    the body's value at `y` is the output layer at the array index `i` lying `4000·tv` rows further down. -/
theorem outLayer_tile (A : FVec Ideal S100000x64 .f32) (B : FVec Ideal S1x64 .f32)
    (x0 : FVec Ideal S4000x64 .f32) (x1 : FVec Ideal S1x64 .f32) (tv : Nat) (ht : tv < 25)
    (hx0 : ∀ (r : Fin 4000) (k : Fin 64), x0 (ix2 r k) = A (ix2 (⟨tv * 4000 + r.val, by omega⟩ : Fin 100000) k))
    (hx1 : ∀ (k : Fin 64), x1 (ix2 (0 : Fin 1) k) = B (ix2 (0 : Fin 1) k))
    (y : S4000x64.Idx) (i : S100000x64.Idx) (hi0 : (i 0).val = tv * 4000 + (y 0).val) (hi1 : (i 1).val = (y 1).val) :
    k3_pay1 (F := Ideal) x0 x1 y = outLayer A B i := by
  obtain ⟨r, c, rfl⟩ : ∃ (r : Fin 4000) (c : Fin 64), y = ix2 r c := ⟨y 0, y 1, eq_ix2 y⟩
  have hi : i = ix2 (⟨tv * 4000 + r.val, by omega⟩ : Fin 100000) c :=
    funext fun a => Fin.ext (by match a with | ⟨0, _⟩ => exact hi0 | ⟨1, _⟩ => exact hi1)
  have hrow : (fun k : Fin 64 => x0 (ix2 r k) + x1 (ix2 (0 : Fin 1) k))
      = fun k : Fin 64 => A (ix2 (⟨tv * 4000 + r.val, by omega⟩ : Fin 100000) k) + B (ix2 (0 : Fin 1) k) :=
    funext fun k => by rw [hx0, hx1]
  rw [hi, Tile.logSoftmax_at, hrow]

variable (V : (c : Dev nD) → (b : Ref sig .tc) → Buf (Elt Ideal) ((c : Thread nD τ).loc b))

theorem zeroOffsets3 : (![0, 0] : Fin 2 → Nat) = fun _ => 0 := funext fun a => by fin_cases a <;> rfl

/-- The printed index maps over the grid: the aggregated array's and the result's tiles move down the rows with the
    point, the bias row stays. -/
theorem tiles3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of the output layer of the arrays as the region finds them. -/
theorem flushed3 (c : Dev nD) (t : Fin cfg3.N) :
    (dat3 V c).flushed 2 t = ((cfg3.win 2).blk t).view.read (Elt Ideal) (outLayer (V c main_v59) (V c main_v60)) := by
  show (cfg3.win 2).cut (grid3.coords t) ((dat3 V c).after 2 t) = _
  rw [after3_2]
  unfold out3_2
  rw [View.canon_unit_zero zeroOffsets3]
  simp only [View.ld_unit_zero (S := S4000x64) zeroOffsets3, View.ld_unit_zero (S := S1x64) zeroOffsets3]
  obtain ⟨e0, e1, e2, e3, e4, e5⟩ := tiles3 t
  have hN : cfg3.N = 25 := N_3
  have htv : t.val < 25 := hN ▸ t.isLt
  funext j
  refine outLayer_tile (V c main_v59) (V c main_v60) _ _ t.val htv (fun r k => ?_) (fun k => ?_) j _ ?_ ?_
  · show V c main_v59 (((cfg3.win 0).blk t).view.emb (ix2 r k)) = _
    refine congrArg (V c main_v59) (funext fun a => Fin.ext ?_)
    match a with
    | ⟨0, _⟩ => show win3_0.index t (0 : Fin 2) * 4000 + 1 * r.val = t.val * 4000 + r.val; omega
    | ⟨1, _⟩ => show win3_0.index t (1 : Fin 2) * 64 + 1 * k.val = k.val; omega
  · show V c main_v60 (((cfg3.win 1).blk t).view.emb (ix2 (0 : Fin 1) k)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * k.val = k.val; omega
  · show win3_2.index t (0 : Fin 2) * 4000 + 1 * (j 0).val = t.val * 4000 + (j 0).val; omega
  · show win3_2.index t (1 : Fin 2) * 64 + 1 * (j 1).val = (j 1).val; omega

/-- An index of the result is in point `t`'s tile iff each coordinate is in the tile's range on its axis. -/
theorem mem_tile3 (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v61).slice (win3_2.rect t)).set ↔ _
  rw [View.set_slice_whole, Rect.mem_set_unit]
  exact Iff.rfl

/-- Every row is in the tile `row / 4000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, e4, e5⟩ := tiles3 t
  refine ⟨t, flush3_2 t, ?_⟩
  rw [mem_tile3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 64 ≤ (i 1).val ∧ (i 1).val < win3_2.index t (1 : Fin 2) * 64 + 64; omega

/-- The result array after the region: the output layer of the arrays as the region finds them. -/
theorem final3 (c : Dev nD) : (dat3 V c).arrAt 2 cfg3.N = outLayer (V c main_v59) (V c main_v60) :=
  (dat3 V c).arrAt_eq_of_cover 2 _ (fun t _ => flushed3 V c t) cover3

end Cert.KernelIdeal.Layer

end
-- ==== Proof.Stretches.lean ====
/-
  The host operations between the pallas_calls, read at the buffers the next pallas_call (or a later stretch) takes.
  Both programs do the graph's bookkeeping with the same operations: the source and destination lists (each edge list
  followed by the self loops), the degree of every node as a scatter-add of ones, its inverse square root where the degree
  is positive, the edge weight as the product of the two endpoints' values, and per layer a gather of the transformed rows
  by source, a product with the edge weight, and a scatter-add by destination. So whatever a stretch is entered with, if
  its inputs hold the reference's values its outputs hold the reference's values of the next stage; a buffer a stretch
  does not write keeps its contents. The bias vectors reach the kernels as one-row matrices, by a reshape.
-/
import proofs.«118945_j72206990181016_1_alg».proof.Proof.Gen.KernelIdeal.Frame
import proofs.«118945_j72206990181016_1_alg».proof.Proof.RefRead

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

/-- No operation of the named stretch writes the buffer in the goal: it keeps its contents. -/
local macro "keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## What each stretch leaves alone -/

theorem keep_hostOps0_main_arg0 (W : Valuation τ sig (Elt Ideal)) :
    StableHlo.after (hostOps0 (F := Ideal)) W (Proc.devRef .tc main_arg0) = W (Proc.devRef .tc main_arg0) := by keeps hostOps0
theorem keep_hostOps0_main_arg2 (W : Valuation τ sig (Elt Ideal)) :
    StableHlo.after (hostOps0 (F := Ideal)) W (Proc.devRef .tc main_arg2) = W (Proc.devRef .tc main_arg2) := by keeps hostOps0
theorem keep_hostOps0_main_arg3 (W : Valuation τ sig (Elt Ideal)) :
    StableHlo.after (hostOps0 (F := Ideal)) W (Proc.devRef .tc main_arg3) = W (Proc.devRef .tc main_arg3) := by keeps hostOps0
theorem keep_hostOps0_main_arg4 (W : Valuation τ sig (Elt Ideal)) :
    StableHlo.after (hostOps0 (F := Ideal)) W (Proc.devRef .tc main_arg4) = W (Proc.devRef .tc main_arg4) := by keeps hostOps0
theorem keep_hostOps0_main_arg5 (W : Valuation τ sig (Elt Ideal)) :
    StableHlo.after (hostOps0 (F := Ideal)) W (Proc.devRef .tc main_arg5) = W (Proc.devRef .tc main_arg5) := by keeps hostOps0
theorem keep_hostOps0_1_main_arg0 (W : Valuation τ sig (Elt Ideal)) :
    StableHlo.after (hostOps0_1 (F := Ideal)) W (Proc.devRef .tc main_arg0) = W (Proc.devRef .tc main_arg0) := by keeps hostOps0_1
theorem keep_hostOps0_1_main_arg2 (W : Valuation τ sig (Elt Ideal)) :
    StableHlo.after (hostOps0_1 (F := Ideal)) W (Proc.devRef .tc main_arg2) = W (Proc.devRef .tc main_arg2) := by keeps hostOps0_1
theorem keep_hostOps0_1_main_arg3 (W : Valuation τ sig (Elt Ideal)) :
    StableHlo.after (hostOps0_1 (F := Ideal)) W (Proc.devRef .tc main_arg3) = W (Proc.devRef .tc main_arg3) := by keeps hostOps0_1
theorem keep_hostOps0_1_main_arg4 (W : Valuation τ sig (Elt Ideal)) :
    StableHlo.after (hostOps0_1 (F := Ideal)) W (Proc.devRef .tc main_arg4) = W (Proc.devRef .tc main_arg4) := by keeps hostOps0_1
theorem keep_hostOps0_1_main_arg5 (W : Valuation τ sig (Elt Ideal)) :
    StableHlo.after (hostOps0_1 (F := Ideal)) W (Proc.devRef .tc main_arg5) = W (Proc.devRef .tc main_arg5) := by keeps hostOps0_1
theorem keep_hostOps0_1_main_v3 (W : Valuation τ sig (Elt Ideal)) :
    StableHlo.after (hostOps0_1 (F := Ideal)) W (Proc.devRef .tc main_v3) = W (Proc.devRef .tc main_v3) := by keeps hostOps0_1
theorem keep_hostOps0_1_main_v6 (W : Valuation τ sig (Elt Ideal)) :
    StableHlo.after (hostOps0_1 (F := Ideal)) W (Proc.devRef .tc main_v6) = W (Proc.devRef .tc main_v6) := by keeps hostOps0_1
theorem keep_hostOps0_2_main_arg0 (W : Valuation τ sig (Elt Ideal)) :
    StableHlo.after (hostOps0_2 (F := Ideal)) W (Proc.devRef .tc main_arg0) = W (Proc.devRef .tc main_arg0) := by keeps hostOps0_2
theorem keep_hostOps0_2_main_arg2 (W : Valuation τ sig (Elt Ideal)) :
    StableHlo.after (hostOps0_2 (F := Ideal)) W (Proc.devRef .tc main_arg2) = W (Proc.devRef .tc main_arg2) := by keeps hostOps0_2
theorem keep_hostOps0_2_main_arg3 (W : Valuation τ sig (Elt Ideal)) :
    StableHlo.after (hostOps0_2 (F := Ideal)) W (Proc.devRef .tc main_arg3) = W (Proc.devRef .tc main_arg3) := by keeps hostOps0_2
theorem keep_hostOps0_2_main_arg4 (W : Valuation τ sig (Elt Ideal)) :
    StableHlo.after (hostOps0_2 (F := Ideal)) W (Proc.devRef .tc main_arg4) = W (Proc.devRef .tc main_arg4) := by keeps hostOps0_2
theorem keep_hostOps0_2_main_arg5 (W : Valuation τ sig (Elt Ideal)) :
    StableHlo.after (hostOps0_2 (F := Ideal)) W (Proc.devRef .tc main_arg5) = W (Proc.devRef .tc main_arg5) := by keeps hostOps0_2
theorem keep_hostOps0_2_main_v3 (W : Valuation τ sig (Elt Ideal)) :
    StableHlo.after (hostOps0_2 (F := Ideal)) W (Proc.devRef .tc main_v3) = W (Proc.devRef .tc main_v3) := by keeps hostOps0_2
theorem keep_hostOps0_2_main_v6 (W : Valuation τ sig (Elt Ideal)) :
    StableHlo.after (hostOps0_2 (F := Ideal)) W (Proc.devRef .tc main_v6) = W (Proc.devRef .tc main_v6) := by keeps hostOps0_2
theorem keep_hostOps1_main_arg4 (W : Valuation τ sig (Elt Ideal)) :
    StableHlo.after (hostOps1 (F := Ideal)) W (Proc.devRef .tc main_arg4) = W (Proc.devRef .tc main_arg4) := by keeps hostOps1
theorem keep_hostOps1_main_arg5 (W : Valuation τ sig (Elt Ideal)) :
    StableHlo.after (hostOps1 (F := Ideal)) W (Proc.devRef .tc main_arg5) = W (Proc.devRef .tc main_arg5) := by keeps hostOps1
theorem keep_hostOps1_main_v3 (W : Valuation τ sig (Elt Ideal)) :
    StableHlo.after (hostOps1 (F := Ideal)) W (Proc.devRef .tc main_v3) = W (Proc.devRef .tc main_v3) := by keeps hostOps1
theorem keep_hostOps1_main_v6 (W : Valuation τ sig (Elt Ideal)) :
    StableHlo.after (hostOps1 (F := Ideal)) W (Proc.devRef .tc main_v6) = W (Proc.devRef .tc main_v6) := by keeps hostOps1
theorem keep_hostOps1_main_v29 (W : Valuation τ sig (Elt Ideal)) :
    StableHlo.after (hostOps1 (F := Ideal)) W (Proc.devRef .tc main_v29) = W (Proc.devRef .tc main_v29) := by keeps hostOps1

/-! ## The edge lists, the degrees and the edge weights (before the first product) -/

section
variable (W : Valuation τ sig (Elt Ideal))

/-- The source list: the edges' sources, then every node once. -/
theorem sources : StableHlo.after (hostOps0 (F := Ideal)) W (Proc.devRef .tc main_v3)
    = Cert.ReferenceIdeal.ReadP.val_main_v3 (F := Ideal) (W (Proc.devRef .tc main_arg1)) := by
  dsimp only [hostOps0]; after_results; rfl

/-- The destination list. -/
theorem destinations : StableHlo.after (hostOps0 (F := Ideal)) W (Proc.devRef .tc main_v6)
    = Cert.ReferenceIdeal.ReadP.val_main_v6 (F := Ideal) (W (Proc.devRef .tc main_arg1)) := by
  dsimp only [hostOps0]; after_results; rfl

/-- Where the degree is positive. -/
theorem degreePositive : StableHlo.after (hostOps0 (F := Ideal)) W (Proc.devRef .tc main_v12)
    = Cert.ReferenceIdeal.ReadP.val_main_v13 (F := Ideal) (W (Proc.devRef .tc main_arg1)) := by
  dsimp only [hostOps0]; after_results; rfl

/-- The inverse square root of the degree. -/
theorem degreeRsqrt : StableHlo.after (hostOps0 (F := Ideal)) W (Proc.devRef .tc main_v13)
    = Cert.ReferenceIdeal.ReadP.val_main_v14 (F := Ideal) (W (Proc.devRef .tc main_arg1)) := by
  dsimp only [hostOps0]; after_results; rfl

/-- The zero the select falls back to. -/
theorem zeroScalar : StableHlo.after (hostOps0 (F := Ideal)) W (Proc.devRef .tc main_cst_2)
    = Cert.ReferenceIdeal.ReadP.val_main_cst_2 (F := Ideal) := by
  dsimp only [hostOps0]; after_results; rfl

/-- The three operations of the outlined `jnp.where` (a convert, a broadcast of the scalar, a select), spelt with the
    plain builders: the printed ones read and write their buffers through a transport along "the buffer's type is the
    value's type", which for these buffers holds by computation. -/
abbrev whereOps : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v12 main_v13 main_call0_v1 main_v14 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

/-- The printed stretch is this one (the transports sit on bound variables only). -/
theorem whereOps_eq : hostOps0_1 (F := Ideal) = whereOps := rfl

/-- The guarded inverse square root of the degree. -/
theorem degreeNorm (x1 : (⟨S2x1600000, .i32⟩ : BufTy).Contents (Elt Ideal))
    (h12 : W (Proc.devRef .tc main_v12) = Cert.ReferenceIdeal.ReadP.val_main_v13 (F := Ideal) x1)
    (h13 : W (Proc.devRef .tc main_v13) = Cert.ReferenceIdeal.ReadP.val_main_v14 (F := Ideal) x1)
    (hc : W (Proc.devRef .tc main_cst_2) = Cert.ReferenceIdeal.ReadP.val_main_cst_2 (F := Ideal)) :
    StableHlo.after (hostOps0_1 (F := Ideal)) W (Proc.devRef .tc main_v14) = Cert.ReferenceIdeal.ReadP.val_main_v15 (F := Ideal) x1 := by
  rw [whereOps_eq]; dsimp only [whereOps]; after_results_simp; simp only [h12, h13, hc]; rfl

set_option maxHeartbeats 2000000 in
/-- The edge weights: the product of the two endpoints' guarded inverse square roots. -/
theorem edgeWeights (x1 : (⟨S2x1600000, .i32⟩ : BufTy).Contents (Elt Ideal))
    (h14 : W (Proc.devRef .tc main_v14) = Cert.ReferenceIdeal.ReadP.val_main_v15 (F := Ideal) x1)
    (h3 : W (Proc.devRef .tc main_v3) = Cert.ReferenceIdeal.ReadP.val_main_v3 (F := Ideal) x1)
    (h6 : W (Proc.devRef .tc main_v6) = Cert.ReferenceIdeal.ReadP.val_main_v6 (F := Ideal) x1) :
    StableHlo.after (hostOps0_2 (F := Ideal)) W (Proc.devRef .tc main_v29) = Cert.ReferenceIdeal.ReadP.val_main_v30 (F := Ideal) x1 := by
  dsimp only [hostOps0_2]; after_results_simp; simp only [h14, h3, h6]; rfl

/-! ## The first aggregation (between the first product and the activation) -/

set_option maxHeartbeats 2000000 in
/-- Gather the product's rows by source, weigh them, scatter-add them by destination. -/
theorem aggregate1 (x0 : (⟨S100000x128, .f32⟩ : BufTy).Contents (Elt Ideal)) (x1 : (⟨S2x1600000, .i32⟩ : BufTy).Contents (Elt Ideal))
    (x2 : (⟨S128x128, .f32⟩ : BufTy).Contents (Elt Ideal))
    (h30 : W (Proc.devRef .tc main_v30) = Cert.ReferenceIdeal.ReadP.val_main_v7 (F := Ideal) x0 x2)
    (h3 : W (Proc.devRef .tc main_v3) = Cert.ReferenceIdeal.ReadP.val_main_v3 (F := Ideal) x1)
    (h6 : W (Proc.devRef .tc main_v6) = Cert.ReferenceIdeal.ReadP.val_main_v6 (F := Ideal) x1)
    (h29 : W (Proc.devRef .tc main_v29) = Cert.ReferenceIdeal.ReadP.val_main_v30 (F := Ideal) x1) :
    StableHlo.after (hostOps1 (F := Ideal)) W (Proc.devRef .tc main_v43) = Cert.ReferenceIdeal.ReadP.val_main_v43 (F := Ideal) x0 x1 x2 := by
  dsimp only [hostOps1]; after_results_simp; simp only [h30, h3, h6, h29]; rfl

set_option maxHeartbeats 2000000 in
/-- The first bias as a one-row matrix. -/
theorem biasRow1 : StableHlo.after (hostOps1 (F := Ideal)) W (Proc.devRef .tc main_v44)
    = shapeCast S1x128 (W (Proc.devRef .tc main_arg3)) shapeCasts_S128_S1x128 := by
  dsimp only [hostOps1]; after_results_simp; rfl

/-! ## The second aggregation (between the second product and the log-softmax) -/

set_option maxHeartbeats 2000000 in
theorem aggregate2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal))
    (h46 : W (Proc.devRef .tc main_v46) = Cert.ReferenceIdeal.ReadP.val_main_v48 (F := Ideal) x0 x1 x2 x3 x4)
    (h3 : W (Proc.devRef .tc main_v3) = Cert.ReferenceIdeal.ReadP.val_main_v3 (F := Ideal) x1)
    (h6 : W (Proc.devRef .tc main_v6) = Cert.ReferenceIdeal.ReadP.val_main_v6 (F := Ideal) x1)
    (h29 : W (Proc.devRef .tc main_v29) = Cert.ReferenceIdeal.ReadP.val_main_v30 (F := Ideal) x1) :
    StableHlo.after (hostOps3 (F := Ideal)) W (Proc.devRef .tc main_v59) = Cert.ReferenceIdeal.ReadP.val_main_v84 (F := Ideal) x0 x1 x2 x3 x4 := by
  dsimp only [hostOps3]; after_results_simp; simp only [h46, h3, h6, h29]; rfl

set_option maxHeartbeats 2000000 in
/-- The second bias as a one-row matrix. -/
theorem biasRow2 : StableHlo.after (hostOps3 (F := Ideal)) W (Proc.devRef .tc main_v60)
    = shapeCast S1x64 (W (Proc.devRef .tc main_arg5)) shapeCasts_S64_S1x64 := by
  dsimp only [hostOps3]; after_results_simp; rfl

end

end Cert.KernelIdeal.Between

end
-- ==== Proof.ReferenceStages.lean ====
/-
  The reference's dense stages, entry by entry. The reference is the same two-layer graph convolution written with whole
  arrays: a product with W₁, an aggregation over the edges, bias and relu, a product with W₂, a second aggregation, bias
  and a log-softmax over each row. Its two products are plain matrix products; its activation at (R, c) is
  relu (agg₁(R, c) + b₁(c)), the bias reaching the entry through two broadcasts; its result at (R, c) is the log-softmax
  of the row agg₂(R, ·) + b₂(·) at column c — jax takes the row's maximum by a reduce from -∞ and then once more the
  maximum with -∞, which changes nothing, and sums the exponentials from 0.
-/
import proofs.«118945_j72206990181016_1_alg».proof.Proof.RefRead
import proofs.«118945_j72206990181016_1_alg».proof.Proof.LibPlainDot
import proofs.«118945_j72206990181016_1_alg».proof.Proof.LibRowReduce
import proofs.«118945_j72206990181016_1_alg».proof.Proof.GcnSpec

noncomputable section

namespace Cert.ReferenceIdeal.Stages

open Idealize.ShloMosaic Idealize.ShloMosaic.ValueIdx Cert.ReferenceIdeal Cert.ReferenceIdeal.Gen Cert.ReferenceIdeal.ReadP

/-- The first product is the plain 100000×128 by 128×128 product. -/
theorem product1_eq (x0 : (⟨S100000x128, .f32⟩ : BufTy).Contents (Elt Ideal)) (x2 : (⟨S128x128, .f32⟩ : BufTy).Contents (Elt Ideal)) :
    val_main_v7 (F := Ideal) x0 x2 = Host.dotGeneral (F := Ideal) (φ₁ := .f32) (φ₂ := .f32) (DotDims.plain 100000 128 128) none x0 x2 := rfl

/-- The second product is the plain 100000×128 by 128×64 product of the activation. -/
theorem product2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    val_main_v48 (F := Ideal) x0 x1 x2 x3 x4
      = Host.dotGeneral (F := Ideal) (φ₁ := .f32) (φ₂ := .f32) (DotDims.plain 100000 128 64) none (val_main_v47 (F := Ideal) x0 x1 x2 x3) x4 := rfl

/-- The activation at (R, c): relu (agg₁(R, c) + b₁(c)). -/
theorem activation_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (R : Fin 100000) (c : Fin 128) :
    val_main_v47 (F := Ideal) x0 x1 x2 x3 (ix2 R c)
      = GcnSpec.biasRelu (val_main_v43 (F := Ideal) x0 x1 x2 (ix2 R c)) (x3 (ix1 c)) := by
  rw [val_main_v47_apply, val_main_v46_apply, val_main_v45_apply, val_main_v44_apply, val_main_call1_v0_apply,
    val_main_call1_cst_apply]
  have e : idx_main_v44 (idx_main_v45 (ix2 R c)) = ix1 c :=
    funext fun a => Fin.ext (by match a with | ⟨0, _⟩ => rfl)
  rw [e]
  rfl

/-- The result at (R, c): the log-softmax of the row agg₂(R, ·) + b₂(·) at column c. -/
theorem result_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (R : Fin 100000) (c : Fin 64) :
    val_main_v88 (F := Ideal) x0 x1 x2 x3 x4 x5 (ix2 R c)
      = GcnSpec.rowLogSoftmax (fun k : Fin 64 => val_main_v84 (F := Ideal) x0 x1 x2 x3 x4 (ix2 R k) + x5 (ix1 k)) c := by
  -- the biased rows
  have hz : ∀ k : Fin 64, val_main_v87 (F := Ideal) x0 x1 x2 x3 x4 x5 (ix2 R k)
      = val_main_v84 (F := Ideal) x0 x1 x2 x3 x4 (ix2 R k) + x5 (ix1 k) := fun k => by
    rw [val_main_v87_apply, val_main_v86_apply, val_main_v85_apply]
    have e : idx_main_v85 (idx_main_v86 (ix2 R k)) = ix1 k :=
      funext fun a => Fin.ext (by match a with | ⟨0, _⟩ => rfl)
    rw [e]
    rfl
  -- the row's maximum
  have hm : val_main_call3_v2 (F := Ideal) x0 x1 x2 x3 x4 x5 (ix1 R)
      = GcnSpec.rowMax (fun k : Fin 64 => val_main_v84 (F := Ideal) x0 x1 x2 x3 x4 (ix2 R k) + x5 (ix1 k)) := by
    rw [val_main_call3_v2_apply, val_main_call3_v1_apply, val_main_call3_cst_0_apply]
    unfold val_main_call3_v0
    rw [RowReduce.hostMax_at _ _ reducesTo_S100000x64_S100000_d1 (by decide) h_S_ R, val_main_call3_cst_apply]
    show max (Ideal.ofBits .f32 0xFF800000#32) (Finset.fold max (Ideal.ofBits .f32 0xFF800000#32) _ _) = _
    rw [RowReduce.max_fold_self]
    unfold GcnSpec.rowMax
    exact congrArg (Finset.fold max (Ideal.ofBits .f32 0xFF800000#32) · (Finset.univ : Finset (Fin 64))) (funext hz)
  -- the rows shifted by their maxima
  have hs : ∀ k : Fin 64, val_main_call3_v5 (F := Ideal) x0 x1 x2 x3 x4 x5 (ix2 R k)
      = (val_main_v84 (F := Ideal) x0 x1 x2 x3 x4 (ix2 R k) + x5 (ix1 k))
        - GcnSpec.rowMax (fun k : Fin 64 => val_main_v84 (F := Ideal) x0 x1 x2 x3 x4 (ix2 R k) + x5 (ix1 k)) := fun k => by
    rw [val_main_call3_v5_apply, val_main_call3_v4_apply, val_main_call3_v3_apply, hz]
    have e : idx_main_call3_v3 (idx_main_call3_v4 (ix2 R k)) = ix1 R :=
      funext fun a => Fin.ext (by match a with | ⟨0, _⟩ => rfl)
    rw [e, hm]
    rfl
  -- the row's sum of exponentials
  have hl : val_main_call3_v7 (F := Ideal) x0 x1 x2 x3 x4 x5 (ix1 R)
      = ∑ k : Fin 64, Ideal.exp ((val_main_v84 (F := Ideal) x0 x1 x2 x3 x4 (ix2 R k) + x5 (ix1 k))
        - GcnSpec.rowMax (fun k : Fin 64 => val_main_v84 (F := Ideal) x0 x1 x2 x3 x4 (ix2 R k) + x5 (ix1 k))) := by
    rw [val_main_call3_v7_apply, val_main_call3_cst_1_apply]
    show Ideal.ofBits .f32 0x00000000#32 + _ = _
    rw [Ideal.ofBits_zero_f32, zero_add]
    refine Finset.sum_congr rfl fun k _ => ?_
    have e : idx_main_call3_v7 (ix1 R) k = ix2 R k :=
      funext fun a => Fin.ext (by match a with | ⟨0, _⟩ => rfl | ⟨1, _⟩ => rfl)
    rw [e, val_main_call3_v6_apply, hs, Ideal.hostUnary_exp_def]
  rw [val_main_v88_apply, val_main_call3_v10_apply, val_main_call3_v9_apply, val_main_call3_v8_apply, hs]
  have e : idx_main_call3_v8 (idx_main_call3_v10 (ix2 R c)) = ix1 R :=
    funext fun a => Fin.ext (by match a with | ⟨0, _⟩ => rfl)
  rw [e, hl]
  unfold GcnSpec.rowLogSoftmax
  rw [Ideal.subf_def, Ideal.hostUnary_log_def]

end Cert.ReferenceIdeal.Stages

end
-- ==== Proof.Assembly.lean ====
/-
  The kernel program returns the reference's array. Walking the kernel program's nine segments from the launch memory
  with the arguments x, the edge index, W₁, b₁, W₂, b₂:
  • the host operations before the first pallas_call leave the source and destination lists and the edge weights at the
    reference's values, and the arguments untouched;
  • the first pallas_call leaves x·W₁, the reference's first product;
  • the next stretch gathers, weighs and scatter-adds it — the reference's first aggregation — and lays b₁ out as a row;
  • the second pallas_call leaves relu (agg₁ + b₁), the reference's activation, and the third its product with W₂;
  • the last stretch leaves the reference's second aggregation and b₂ as a row, and the fourth pallas_call the log-softmax
    of every row of agg₂ + b₂, which is what the reference returns.
  Each pallas_call's array is one function of the arrays it is entered with (the four modules about the layers); each
  stretch maps the reference's values at its inputs to the reference's values at its outputs.
-/
import proofs.«118945_j72206990181016_1_alg».proof.Proof.KernelRun
import proofs.«118945_j72206990181016_1_alg».proof.Proof.FirstProduct
import proofs.«118945_j72206990181016_1_alg».proof.Proof.Activation
import proofs.«118945_j72206990181016_1_alg».proof.Proof.SecondProduct
import proofs.«118945_j72206990181016_1_alg».proof.Proof.OutputLayer
import proofs.«118945_j72206990181016_1_alg».proof.Proof.Stretches
import proofs.«118945_j72206990181016_1_alg».proof.Proof.ReferenceStages

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen

/-! ## The two entrywise layers against the reference's stages -/

/-- relu (agg₁ + the bias row) over the whole array is the reference's activation, when the row is b₁ reshaped. -/
theorem activation_eq (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) :
    Layer.activation (Cert.ReferenceIdeal.ReadP.val_main_v43 (F := Ideal) x0 x1 x2) (shapeCast S1x128 x3 shapeCasts_S128_S1x128)
      = Cert.ReferenceIdeal.ReadP.val_main_v47 (F := Ideal) x0 x1 x2 x3 := by
  funext i
  obtain ⟨R, c, rfl⟩ : ∃ (R : Fin 100000) (c : Fin 128), i = ix2 R c := ⟨i 0, i 1, eq_ix2 i⟩
  show GcnSpec.biasRelu (Cert.ReferenceIdeal.ReadP.val_main_v43 (F := Ideal) x0 x1 x2 (ix2 R c)) (shapeCast S1x128 x3 shapeCasts_S128_S1x128 (ix2 (0 : Fin 1) c)) = _
  rw [shapeCast_a_1a_apply, Cert.ReferenceIdeal.Stages.activation_at]

/-- The row-wise log-softmax of (agg₂ + the bias row) over the whole array is the reference's result, when the row is b₂ reshaped. -/
theorem outLayer_eq (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal)) :
    Layer.outLayer (Cert.ReferenceIdeal.ReadP.val_main_v84 (F := Ideal) x0 x1 x2 x3 x4) (shapeCast S1x64 x5 shapeCasts_S64_S1x64)
      = Cert.ReferenceIdeal.ReadP.val_main_v88 (F := Ideal) x0 x1 x2 x3 x4 x5 := by
  funext i
  obtain ⟨R, c, rfl⟩ : ∃ (R : Fin 100000) (c : Fin 64), i = ix2 R c := ⟨i 0, i 1, eq_ix2 i⟩
  rw [Cert.ReferenceIdeal.Stages.result_at]
  show GcnSpec.rowLogSoftmax (fun k : Fin 64 => Cert.ReferenceIdeal.ReadP.val_main_v84 (F := Ideal) x0 x1 x2 x3 x4 (ix2 R k)
      + shapeCast S1x64 x5 shapeCasts_S64_S1x64 (ix2 (0 : Fin 1) k)) c = _
  have hrow : (fun k : Fin 64 => Cert.ReferenceIdeal.ReadP.val_main_v84 (F := Ideal) x0 x1 x2 x3 x4 (ix2 R k)
        + shapeCast S1x64 x5 shapeCasts_S64_S1x64 (ix2 (0 : Fin 1) k))
      = fun k : Fin 64 => Cert.ReferenceIdeal.ReadP.val_main_v84 (F := Ideal) x0 x1 x2 x3 x4 (ix2 R k) + x5 (ix1 k) :=
    funext fun k => by rw [shapeCast_a_1a_apply]
  rw [hrow]

/-! ## The walk through the nine segments -/

section
variable (m : (ℓ : Loc nD τ sig) → Buf (Elt Ideal) ℓ) (ρ : Dev nD → PrngReg) (c : Dev nD)

/-! ### Before the first pallas_call -/

theorem at3_arg0 : W3 m ρ c (Proc.devRef .tc main_arg0) = (m ((c : Thread nD τ).loc main_arg0)) :=
  (Between.keep_hostOps0_2_main_arg0 _).trans ((Between.keep_hostOps0_1_main_arg0 _).trans (Between.keep_hostOps0_main_arg0 _))
theorem at3_arg2 : W3 m ρ c (Proc.devRef .tc main_arg2) = (m ((c : Thread nD τ).loc main_arg2)) :=
  (Between.keep_hostOps0_2_main_arg2 _).trans ((Between.keep_hostOps0_1_main_arg2 _).trans (Between.keep_hostOps0_main_arg2 _))
theorem at3_arg3 : W3 m ρ c (Proc.devRef .tc main_arg3) = (m ((c : Thread nD τ).loc main_arg3)) :=
  (Between.keep_hostOps0_2_main_arg3 _).trans ((Between.keep_hostOps0_1_main_arg3 _).trans (Between.keep_hostOps0_main_arg3 _))
theorem at3_arg4 : W3 m ρ c (Proc.devRef .tc main_arg4) = (m ((c : Thread nD τ).loc main_arg4)) :=
  (Between.keep_hostOps0_2_main_arg4 _).trans ((Between.keep_hostOps0_1_main_arg4 _).trans (Between.keep_hostOps0_main_arg4 _))
theorem at3_arg5 : W3 m ρ c (Proc.devRef .tc main_arg5) = (m ((c : Thread nD τ).loc main_arg5)) :=
  (Between.keep_hostOps0_2_main_arg5 _).trans ((Between.keep_hostOps0_1_main_arg5 _).trans (Between.keep_hostOps0_main_arg5 _))

theorem at1_v3 : W1 m ρ c (Proc.devRef .tc main_v3) = Cert.ReferenceIdeal.ReadP.val_main_v3 (F := Ideal) (m ((c : Thread nD τ).loc main_arg1)) := Between.sources (W0 m ρ c)
theorem at1_v6 : W1 m ρ c (Proc.devRef .tc main_v6) = Cert.ReferenceIdeal.ReadP.val_main_v6 (F := Ideal) (m ((c : Thread nD τ).loc main_arg1)) := Between.destinations (W0 m ρ c)
theorem at2_v3 : W2 m ρ c (Proc.devRef .tc main_v3) = Cert.ReferenceIdeal.ReadP.val_main_v3 (F := Ideal) (m ((c : Thread nD τ).loc main_arg1)) :=
  (Between.keep_hostOps0_1_main_v3 _).trans (at1_v3 m ρ c)
theorem at2_v6 : W2 m ρ c (Proc.devRef .tc main_v6) = Cert.ReferenceIdeal.ReadP.val_main_v6 (F := Ideal) (m ((c : Thread nD τ).loc main_arg1)) :=
  (Between.keep_hostOps0_1_main_v6 _).trans (at1_v6 m ρ c)
theorem at3_v3 : W3 m ρ c (Proc.devRef .tc main_v3) = Cert.ReferenceIdeal.ReadP.val_main_v3 (F := Ideal) (m ((c : Thread nD τ).loc main_arg1)) :=
  (Between.keep_hostOps0_2_main_v3 _).trans (at2_v3 m ρ c)
theorem at3_v6 : W3 m ρ c (Proc.devRef .tc main_v6) = Cert.ReferenceIdeal.ReadP.val_main_v6 (F := Ideal) (m ((c : Thread nD τ).loc main_arg1)) :=
  (Between.keep_hostOps0_2_main_v6 _).trans (at2_v6 m ρ c)
theorem at2_v14 : W2 m ρ c (Proc.devRef .tc main_v14) = Cert.ReferenceIdeal.ReadP.val_main_v15 (F := Ideal) (m ((c : Thread nD τ).loc main_arg1)) :=
  Between.degreeNorm (W1 m ρ c) (m ((c : Thread nD τ).loc main_arg1)) (Between.degreePositive (W0 m ρ c)) (Between.degreeRsqrt (W0 m ρ c)) (Between.zeroScalar (W0 m ρ c))
theorem at3_v29 : W3 m ρ c (Proc.devRef .tc main_v29) = Cert.ReferenceIdeal.ReadP.val_main_v30 (F := Ideal) (m ((c : Thread nD τ).loc main_arg1)) :=
  Between.edgeWeights (W2 m ρ c) (m ((c : Thread nD τ).loc main_arg1)) (at2_v14 m ρ c) (at2_v3 m ρ c) (at2_v6 m ρ c)

/-! ### The first product and the first aggregation -/

theorem at4_v30 : W4 m ρ c (Proc.devRef .tc main_v30) = Cert.ReferenceIdeal.ReadP.val_main_v7 (F := Ideal) (m ((c : Thread nD τ).loc main_arg0)) (m ((c : Thread nD τ).loc main_arg2)) := by
  refine (W4_arr m ρ c 2).trans ((Layer.final0 (V3 m ρ) c).trans ?_)
  rw [show V3 m ρ c main_arg0 = (m ((c : Thread nD τ).loc main_arg0)) from at3_arg0 m ρ c, show V3 m ρ c main_arg2 = (m ((c : Thread nD τ).loc main_arg2)) from at3_arg2 m ρ c]
  exact (Cert.ReferenceIdeal.Stages.product1_eq _ _).symm

theorem at4_v3 : W4 m ρ c (Proc.devRef .tc main_v3) = Cert.ReferenceIdeal.ReadP.val_main_v3 (F := Ideal) (m ((c : Thread nD τ).loc main_arg1)) :=
  (W4_of_ne m ρ c main_v3 (by decide)).trans (at3_v3 m ρ c)
theorem at4_v6 : W4 m ρ c (Proc.devRef .tc main_v6) = Cert.ReferenceIdeal.ReadP.val_main_v6 (F := Ideal) (m ((c : Thread nD τ).loc main_arg1)) :=
  (W4_of_ne m ρ c main_v6 (by decide)).trans (at3_v6 m ρ c)
theorem at4_v29 : W4 m ρ c (Proc.devRef .tc main_v29) = Cert.ReferenceIdeal.ReadP.val_main_v30 (F := Ideal) (m ((c : Thread nD τ).loc main_arg1)) :=
  (W4_of_ne m ρ c main_v29 (by decide)).trans (at3_v29 m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)

theorem at5_v43 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) :=
  Between.aggregate1 (W4 m ρ c) (m ((c : Thread nD τ).loc main_arg0)) (m ((c : Thread nD τ).loc main_arg1)) (m ((c : Thread nD τ).loc main_arg2)) (at4_v30 m ρ c) (at4_v3 m ρ c) (at4_v6 m ρ c) (at4_v29 m ρ c)
theorem at5_v44 : W5 m ρ c (Proc.devRef .tc main_v44) = shapeCast S1x128 (m ((c : Thread nD τ).loc main_arg3)) shapeCasts_S128_S1x128 :=
  (Between.biasRow1 (W4 m ρ c)).trans (by rw [at4_arg3 m ρ c])
theorem at5_v3 : W5 m ρ c (Proc.devRef .tc main_v3) = Cert.ReferenceIdeal.ReadP.val_main_v3 (F := Ideal) (m ((c : Thread nD τ).loc main_arg1)) :=
  (Between.keep_hostOps1_main_v3 _).trans (at4_v3 m ρ c)
theorem at5_v6 : W5 m ρ c (Proc.devRef .tc main_v6) = Cert.ReferenceIdeal.ReadP.val_main_v6 (F := Ideal) (m ((c : Thread nD τ).loc main_arg1)) :=
  (Between.keep_hostOps1_main_v6 _).trans (at4_v6 m ρ c)
theorem at5_v29 : W5 m ρ c (Proc.devRef .tc main_v29) = Cert.ReferenceIdeal.ReadP.val_main_v30 (F := Ideal) (m ((c : Thread nD τ).loc main_arg1)) :=
  (Between.keep_hostOps1_main_v29 _).trans (at4_v29 m ρ c)
theorem at5_arg4 : W5 m ρ c (Proc.devRef .tc main_arg4) = (m ((c : Thread nD τ).loc main_arg4)) := (Between.keep_hostOps1_main_arg4 _).trans (at4_arg4 m ρ c)
theorem at5_arg5 : W5 m ρ c (Proc.devRef .tc main_arg5) = (m ((c : Thread nD τ).loc main_arg5)) := (Between.keep_hostOps1_main_arg5 _).trans (at4_arg5 m ρ c)

/-! ### The activation and the second product -/

theorem at6_v45 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Layer.final1 (V5 m ρ) c).trans ?_)
  rw [show V5 m ρ c main_v43 = _ from at5_v43 m ρ c, show V5 m ρ c main_v44 = _ from at5_v44 m ρ c]
  exact activation_eq (m ((c : Thread nD τ).loc main_arg0)) (m ((c : Thread nD τ).loc main_arg1)) (m ((c : Thread nD τ).loc main_arg2)) (m ((c : Thread nD τ).loc main_arg3))

theorem at6_arg4 : W6 m ρ c (Proc.devRef .tc main_arg4) = (m ((c : Thread nD τ).loc main_arg4)) := (W6_of_ne m ρ c main_arg4 (by decide)).trans (at5_arg4 m ρ c)

theorem at7_v46 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Layer.final2 (V6 m ρ) c).trans ?_)
  rw [show V6 m ρ c main_v45 = _ from at6_v45 m ρ c, show V6 m ρ c main_arg4 = (m ((c : Thread nD τ).loc main_arg4)) from at6_arg4 m ρ c]
  exact (Cert.ReferenceIdeal.Stages.product2_eq _ _ _ _ _).symm

theorem at7_v3 : W7 m ρ c (Proc.devRef .tc main_v3) = Cert.ReferenceIdeal.ReadP.val_main_v3 (F := Ideal) (m ((c : Thread nD τ).loc main_arg1)) :=
  (W7_of_ne m ρ c main_v3 (by decide)).trans ((W6_of_ne m ρ c main_v3 (by decide)).trans (at5_v3 m ρ c))
theorem at7_v6 : W7 m ρ c (Proc.devRef .tc main_v6) = Cert.ReferenceIdeal.ReadP.val_main_v6 (F := Ideal) (m ((c : Thread nD τ).loc main_arg1)) :=
  (W7_of_ne m ρ c main_v6 (by decide)).trans ((W6_of_ne m ρ c main_v6 (by decide)).trans (at5_v6 m ρ c))
theorem at7_v29 : W7 m ρ c (Proc.devRef .tc main_v29) = Cert.ReferenceIdeal.ReadP.val_main_v30 (F := Ideal) (m ((c : Thread nD τ).loc main_arg1)) :=
  (W7_of_ne m ρ c main_v29 (by decide)).trans ((W6_of_ne m ρ c main_v29 (by decide)).trans (at5_v29 m ρ c))
theorem at7_arg5 : W7 m ρ c (Proc.devRef .tc main_arg5) = (m ((c : Thread nD τ).loc main_arg5)) :=
  (W7_of_ne m ρ c main_arg5 (by decide)).trans ((W6_of_ne m ρ c main_arg5 (by decide)).trans (at5_arg5 m ρ c))

/-! ### The second aggregation and the output layer -/

theorem at8_v59 : W8 m ρ c (Proc.devRef .tc main_v59) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Between.aggregate2 (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (at7_v46 m ρ c) (at7_v3 m ρ c) (at7_v6 m ρ c) (at7_v29 m ρ c)
theorem at8_v60 : W8 m ρ c (Proc.devRef .tc main_v60) = shapeCast S1x64 (m ((c : Thread nD τ).loc main_arg5)) shapeCasts_S64_S1x64 :=
  (Between.biasRow2 (W7 m ρ c)).trans (by rw [at7_arg5 m ρ c])

/-- What the kernel program returns: the reference's last stage of the six arguments. -/
theorem at9_v61 : W9 m ρ c (Proc.devRef .tc main_v61) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Layer.final3 (V8 m ρ) c).trans ?_)
  rw [show V8 m ρ c main_v59 = _ from at8_v59 m ρ c, show V8 m ρ c main_v60 = _ from at8_v60 m ρ c]
  exact outLayer_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

end

/-- The kernel program's run: the result at the reference's last stage of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v61)
        = Cert.ReferenceIdeal.ReadP.val_main_v88 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (at9_v61 m ρ c), (h c).2⟩) (run_result m ρ)

end Cert.KernelIdeal.Whole

end
-- ==== Proof.ReferenceOps.lean ====
/-
  The reference program's 131 host operations with its outlined functions spelt directly. jax outlines `jnp.where`,
  `relu` and `log_softmax` as private functions; their 24 operations are printed over typed references, which read and
  write a buffer through a transport along "this buffer's type is the value's type". For these buffers that equation
  holds by computation, so each such operation is the plain operation on the same buffers with the same function, and
  the whole list is the printed one (`ops_eq`, by computation: the transports sit on bound variables only). Reading the
  program back through the plain list leaves no transport inside a term over full-size arrays.
-/
import proofs.«118945_j72206990181016_1_alg».proof.Proof.RefRun

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.ValueP (ops)

variable {F : FTy → Type} [FloatOps F]

/-- @main's 131 operations, in order, the called functions' operations spelt with the plain builders. -/
abbrev opsPlain : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32 : (⟨S_, .f32⟩ : BufTy).Contents (Elt F)),
    unary main_call1_cst main_call1_v0 (broadcastInDim S100000x128 ![] bcast_S_S100000x128 : (⟨S_, .f32⟩ : BufTy).Contents (Elt F) → (⟨S100000x128, .f32⟩ : BufTy).Contents (Elt F)),
    binary main_v46 main_call1_v0 main_v47 (maximumf : (⟨S100000x128, .f32⟩ : BufTy).Contents (Elt F) → (⟨S100000x128, .f32⟩ : BufTy).Contents (Elt F) → (⟨S100000x128, .f32⟩ : BufTy).Contents (Elt F)),
    binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    unary main_cst_12 main_call2_v0 (id : (⟨S_, .f32⟩ : BufTy).Contents (Elt F) → (⟨S_, .f32⟩ : BufTy).Contents (Elt F)),
    unary main_call2_v0 main_call2_v1 (broadcastInDim S100000 ![] bcast_S_S100000 : (⟨S_, .f32⟩ : BufTy).Contents (Elt F) → (⟨S100000, .f32⟩ : BufTy).Contents (Elt F)),
    ternary main_v54 main_v55 main_call2_v1 main_v56 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)),
    nullary main_call3_cst (constant S_ .f32 0xFF800000#32 : (⟨S_, .f32⟩ : BufTy).Contents (Elt F)),
    binary main_v87 main_call3_cst main_call3_v0 (fun x v => Host.reduce FloatOps.maximumf x v reducesTo_S100000x64_S100000_d1 h_S_ : (⟨S100000x64, .f32⟩ : BufTy).Contents (Elt F) → (⟨S_, .f32⟩ : BufTy).Contents (Elt F) → (⟨S100000, .f32⟩ : BufTy).Contents (Elt F)),
    nullary main_call3_cst_0 (constant S_ .f32 0xFF800000#32 : (⟨S_, .f32⟩ : BufTy).Contents (Elt F)),
    unary main_call3_cst_0 main_call3_v1 (broadcastInDim S100000 ![] bcast_S_S100000 : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 (broadcastInDim S100000x1 ![0] bcast_S100000_S100000x1_0 : (⟨S100000, .f32⟩ : BufTy).Contents (Elt F) → (⟨S100000x1, .f32⟩ : BufTy).Contents (Elt F)),
    unary main_call3_v3 main_call3_v4 (broadcastInDim S100000x64 ![0, 1] bcast_S100000x1_S100000x64_0_1 : (⟨S100000x1, .f32⟩ : BufTy).Contents (Elt F) → (⟨S100000x64, .f32⟩ : BufTy).Contents (Elt F)),
    binary main_v87 main_call3_v4 main_call3_v5 (subf : (⟨S100000x64, .f32⟩ : BufTy).Contents (Elt F) → (⟨S100000x64, .f32⟩ : BufTy).Contents (Elt F) → (⟨S100000x64, .f32⟩ : BufTy).Contents (Elt F)),
    unary main_call3_v5 main_call3_v6 (Host.exp : (⟨S100000x64, .f32⟩ : BufTy).Contents (Elt F) → (⟨S100000x64, .f32⟩ : BufTy).Contents (Elt F)),
    nullary main_call3_cst_1 (constant S_ .f32 0x00000000#32 : (⟨S_, .f32⟩ : BufTy).Contents (Elt F)),
    binary main_call3_v6 main_call3_cst_1 main_call3_v7 (fun x v => Host.reduceAdd x v reducesTo_S100000x64_S100000_d1 h_S_ : (⟨S100000x64, .f32⟩ : BufTy).Contents (Elt F) → (⟨S_, .f32⟩ : BufTy).Contents (Elt F) → (⟨S100000, .f32⟩ : BufTy).Contents (Elt F)),
    unary main_call3_v7 main_call3_v8 (broadcastInDim S100000x1 ![0] bcast_S100000_S100000x1_0 : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 (broadcastInDim S100000x64 ![0, 1] bcast_S100000x1_S100000x64_0_1 : (⟨S100000x1, .f32⟩ : BufTy).Contents (Elt F) → (⟨S100000x64, .f32⟩ : BufTy).Contents (Elt F)),
    binary main_call3_v5 main_call3_v10 main_v88 (subf : (⟨S100000x64, .f32⟩ : BufTy).Contents (Elt F) → (⟨S100000x64, .f32⟩ : BufTy).Contents (Elt F) → (⟨S100000x64, .f32⟩ : BufTy).Contents (Elt F)) ]

/-- The first 117 of them (up to the row maximum of `log_softmax`), -/
abbrev prefixPlain : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32 : (⟨S_, .f32⟩ : BufTy).Contents (Elt F)),
    unary main_call1_cst main_call1_v0 (broadcastInDim S100000x128 ![] bcast_S_S100000x128 : (⟨S_, .f32⟩ : BufTy).Contents (Elt F) → (⟨S100000x128, .f32⟩ : BufTy).Contents (Elt F)),
    binary main_v46 main_call1_v0 main_v47 (maximumf : (⟨S100000x128, .f32⟩ : BufTy).Contents (Elt F) → (⟨S100000x128, .f32⟩ : BufTy).Contents (Elt F) → (⟨S100000x128, .f32⟩ : BufTy).Contents (Elt F)),
    binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    unary main_cst_12 main_call2_v0 (id : (⟨S_, .f32⟩ : BufTy).Contents (Elt F) → (⟨S_, .f32⟩ : BufTy).Contents (Elt F)),
    unary main_call2_v0 main_call2_v1 (broadcastInDim S100000 ![] bcast_S_S100000 : (⟨S_, .f32⟩ : BufTy).Contents (Elt F) → (⟨S100000, .f32⟩ : BufTy).Contents (Elt F)),
    ternary main_v54 main_v55 main_call2_v1 main_v56 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)),
    nullary main_call3_cst (constant S_ .f32 0xFF800000#32 : (⟨S_, .f32⟩ : BufTy).Contents (Elt F)) ]

/-- and the last 13 (after it). -/
abbrev suffixPlain : List (HloOp τ sig (Elt F)) :=
  [ nullary main_call3_cst_0 (constant S_ .f32 0xFF800000#32 : (⟨S_, .f32⟩ : BufTy).Contents (Elt F)),
    unary main_call3_cst_0 main_call3_v1 (broadcastInDim S100000 ![] bcast_S_S100000 : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 (broadcastInDim S100000x1 ![0] bcast_S100000_S100000x1_0 : (⟨S100000, .f32⟩ : BufTy).Contents (Elt F) → (⟨S100000x1, .f32⟩ : BufTy).Contents (Elt F)),
    unary main_call3_v3 main_call3_v4 (broadcastInDim S100000x64 ![0, 1] bcast_S100000x1_S100000x64_0_1 : (⟨S100000x1, .f32⟩ : BufTy).Contents (Elt F) → (⟨S100000x64, .f32⟩ : BufTy).Contents (Elt F)),
    binary main_v87 main_call3_v4 main_call3_v5 (subf : (⟨S100000x64, .f32⟩ : BufTy).Contents (Elt F) → (⟨S100000x64, .f32⟩ : BufTy).Contents (Elt F) → (⟨S100000x64, .f32⟩ : BufTy).Contents (Elt F)),
    unary main_call3_v5 main_call3_v6 (Host.exp : (⟨S100000x64, .f32⟩ : BufTy).Contents (Elt F) → (⟨S100000x64, .f32⟩ : BufTy).Contents (Elt F)),
    nullary main_call3_cst_1 (constant S_ .f32 0x00000000#32 : (⟨S_, .f32⟩ : BufTy).Contents (Elt F)),
    binary main_call3_v6 main_call3_cst_1 main_call3_v7 (fun x v => Host.reduceAdd x v reducesTo_S100000x64_S100000_d1 h_S_ : (⟨S100000x64, .f32⟩ : BufTy).Contents (Elt F) → (⟨S_, .f32⟩ : BufTy).Contents (Elt F) → (⟨S100000, .f32⟩ : BufTy).Contents (Elt F)),
    unary main_call3_v7 main_call3_v8 (broadcastInDim S100000x1 ![0] bcast_S100000_S100000x1_0 : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 (broadcastInDim S100000x64 ![0, 1] bcast_S100000x1_S100000x64_0_1 : (⟨S100000x1, .f32⟩ : BufTy).Contents (Elt F) → (⟨S100000x64, .f32⟩ : BufTy).Contents (Elt F)),
    binary main_call3_v5 main_call3_v10 main_v88 (subf : (⟨S100000x64, .f32⟩ : BufTy).Contents (Elt F) → (⟨S100000x64, .f32⟩ : BufTy).Contents (Elt F) → (⟨S100000x64, .f32⟩ : BufTy).Contents (Elt F)) ]

/-- A binary operation over typed references whose declared types are the buffers' own types is the plain operation on
    the buffers, whatever its function: the two transports are along `rfl`. Stated with the function a variable, so that
    a function that folds over a full-size array is never opened. -/
theorem binary_of_ty {Val : EltTy → Type} (ra rb ry : Ref sig .tc)
    (ha : ra.space ≠ .host) (ha' : ra.isScoped = false) (hb : rb.space ≠ .host) (hb' : rb.isScoped = false)
    (hy : ry.space ≠ .host) (hy' : ry.isScoped = false)
    (f : ra.ty.Contents Val → rb.ty.Contents Val → ry.ty.Contents Val) :
    (TRef.binary (τ := τ) (⟨ra, rfl, ha, ha'⟩ : TRef sig ra.ty) (⟨rb, rfl, hb, hb'⟩ : TRef sig rb.ty)
        (⟨ry, rfl, hy, hy'⟩ : TRef sig ry.ty) f : HloOp τ sig Val)
      = StableHlo.binary ra rb ry f (TRef.dev ⟨ra, rfl, ha, ha'⟩) (TRef.dev ⟨rb, rfl, hb, hb'⟩) (TRef.dev ⟨ry, rfl, hy, hy'⟩) := rfl

/-- The row maximum of `log_softmax` (operation 117 of the line), printed and plain. -/
theorem rowMax_plain :
    (TRef.binary (TRef.of (T := ⟨S100000x64, .f32⟩) main_v87) (TRef.of (T := ⟨S_, .f32⟩) main_call3_cst) (TRef.of (T := ⟨S100000, .f32⟩) main_call3_v0) (fun x v => Host.reduce FloatOps.maximumf x v reducesTo_S100000x64_S100000_d1 h_S_) : HloOp τ sig (Elt F))
      = binary main_v87 main_call3_cst main_call3_v0 (fun x v => Host.reduce FloatOps.maximumf x v reducesTo_S100000x64_S100000_d1 h_S_ : (⟨S100000x64, .f32⟩ : BufTy).Contents (Elt F) → (⟨S_, .f32⟩ : BufTy).Contents (Elt F) → (⟨S100000, .f32⟩ : BufTy).Contents (Elt F)) :=
  binary_of_ty main_v87 main_call3_cst main_call3_v0 _ _ _ _ _ _ _

set_option maxRecDepth 65536 in
set_option maxHeartbeats 4000000 in
/-- The printed list is this one: entry by entry by computation, but for the row maximum. -/
theorem ops_eq : Cert.ReferenceIdeal.ValueP.ops (F := F) = opsPlain (F := F) := by
  have hL : Cert.ReferenceIdeal.ValueP.ops (F := F)
      = List.take 117 (Cert.ReferenceIdeal.ValueP.ops (F := F))
        ++ ((TRef.binary (TRef.of (T := ⟨S100000x64, .f32⟩) main_v87) (TRef.of (T := ⟨S_, .f32⟩) main_call3_cst) (TRef.of (T := ⟨S100000, .f32⟩) main_call3_v0) (fun x v => Host.reduce FloatOps.maximumf x v reducesTo_S100000x64_S100000_d1 h_S_) : HloOp τ sig (Elt F))
          :: List.drop 118 (Cert.ReferenceIdeal.ValueP.ops (F := F))) := rfl
  have hR : opsPlain (F := F)
      = prefixPlain (F := F)
        ++ ((binary main_v87 main_call3_cst main_call3_v0 (fun x v => Host.reduce FloatOps.maximumf x v reducesTo_S100000x64_S100000_d1 h_S_ : (⟨S100000x64, .f32⟩ : BufTy).Contents (Elt F) → (⟨S_, .f32⟩ : BufTy).Contents (Elt F) → (⟨S100000, .f32⟩ : BufTy).Contents (Elt F)) : HloOp τ sig (Elt F))
          :: suffixPlain (F := F)) := rfl
  -- the printed line's first 117 and last 13 operations, computed entry by entry, never meet the row maximum
  have h1 : List.take 117 (Cert.ReferenceIdeal.ValueP.ops (F := F)) = prefixPlain (F := F) := rfl
  have h2 : List.drop 118 (Cert.ReferenceIdeal.ValueP.ops (F := F)) = suffixPlain (F := F) := rfl
  exact hL.trans ((congr (congrArg HAppend.hAppend h1) (congr (congrArg List.cons rowMax_plain) h2)).trans hR.symm)

end Cert.ReferenceIdeal.Staged

end
-- ==== Proof.ReferenceRun.lean ====
/-
  The reference program's run, read back stage by stage. The reference is one straight line of 131 host operations. Read
  in four stages — the edge lists, the first product and the edge weights (41 operations); the first aggregation, bias,
  relu and the second product (23); the edge weights computed a second time (33); the second aggregation, bias and the
  row-wise log-softmax (34) — each stage, entered with its inputs at the values of the stages before it, leaves its
  outputs at the values of the stages' own defining terms, and the buffers it does not write as they were. Chained from
  the launch memory this gives the returned array as the last stage's term of the six argument arrays. The line is read
  through its plain spelling (the outlined functions' operations written with the plain builders), which is the printed
  line by computation.
-/
import proofs.«118945_j72206990181016_1_alg».proof.Proof.ReferenceOps
import proofs.«118945_j72206990181016_1_alg».proof.Proof.RefRead

set_option maxRecDepth 16384
set_option Elab.async false

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

/-- Running two lines one after the other is running their concatenation. -/
theorem after_append {Val : EltTy → Type} (l₁ l₂ : List (HloOp τ sig Val)) (W : Valuation τ sig Val) :
    after (l₁ ++ l₂) W = after l₂ (after l₁ W) := by
  induction l₁ generalizing W with
  | nil => rfl
  | cons a l ih => exact ih (a.result W)

/-- The edge lists, the first product, the degrees and the edge weights. -/
abbrev edgeStage : List (HloOp τ sig (Elt Ideal)) := (opsPlain (F := Ideal)).take 41
/-- The first aggregation, bias, relu, and the second product. -/
abbrev layer1Stage : List (HloOp τ sig (Elt Ideal)) := ((opsPlain (F := Ideal)).drop 41).take 23
/-- The degrees and the edge weights once more. -/
abbrev edgeStage2 : List (HloOp τ sig (Elt Ideal)) := (((opsPlain (F := Ideal)).drop 41).drop 23).take 33
/-- The second aggregation, bias, and the log-softmax of every row. -/
abbrev layer2Stage : List (HloOp τ sig (Elt Ideal)) := (((opsPlain (F := Ideal)).drop 41).drop 23).drop 33

theorem ops_split : opsPlain (F := Ideal) = edgeStage ++ (layer1Stage ++ (edgeStage2 ++ layer2Stage)) := by
  show _ = List.take 41 opsPlain ++ (List.take 23 (List.drop 41 opsPlain) ++ (List.take 33 (List.drop 23 (List.drop 41 opsPlain)) ++ List.drop 33 (List.drop 23 (List.drop 41 opsPlain))))
  rw [List.take_append_drop, List.take_append_drop, List.take_append_drop]

/-- Spell a stage as its literal list of operations and read the goal's buffer through it: one simp pass, then the reads
    that pass leaves inside the concatenations' lists of pairs. -/
local macro "read_stage" : tactic => `(tactic| (
  simp only [edgeStage, layer1Stage, edgeStage2, layer2Stage, opsPlain, List.take_succ_cons, List.take_zero, List.drop_succ_cons, List.drop_zero]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-- A buffer the stage does not write: every operation's result there is what was there. -/
local macro "stage_keeps" : tactic => `(tactic| (
  simp only [edgeStage, layer1Stage, edgeStage2, layer2Stage, opsPlain, List.take_succ_cons, List.take_zero, List.drop_succ_cons, List.drop_zero]
  after_results_simp <;> rfl))

section
variable (W : Valuation τ sig (Elt Ideal))

/-! ## The first stage -/

theorem edge_sources : after edgeStage W (Proc.devRef .tc main_v3) = val_main_v3 (F := Ideal) (W (Proc.devRef .tc main_arg1)) := by
  read_stage; rfl
theorem edge_destinations : after edgeStage W (Proc.devRef .tc main_v6) = val_main_v6 (F := Ideal) (W (Proc.devRef .tc main_arg1)) := by
  read_stage; rfl
theorem edge_product : after edgeStage W (Proc.devRef .tc main_v7) = val_main_v7 (F := Ideal) (W (Proc.devRef .tc main_arg0)) (W (Proc.devRef .tc main_arg2)) := by
  read_stage; rfl
set_option maxHeartbeats 4000000 in
theorem edge_weights : after edgeStage W (Proc.devRef .tc main_v30) = val_main_v30 (F := Ideal) (W (Proc.devRef .tc main_arg1)) := by
  read_stage; rfl
theorem edge_keeps_arg3 : after edgeStage W (Proc.devRef .tc main_arg3) = W (Proc.devRef .tc main_arg3) := by stage_keeps
theorem edge_keeps_arg4 : after edgeStage W (Proc.devRef .tc main_arg4) = W (Proc.devRef .tc main_arg4) := by stage_keeps
theorem edge_keeps_arg5 : after edgeStage W (Proc.devRef .tc main_arg5) = W (Proc.devRef .tc main_arg5) := by stage_keeps

/-! ## The second stage -/

set_option maxHeartbeats 4000000 in
theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal))
    (h3 : W (Proc.devRef .tc main_v3) = val_main_v3 (F := Ideal) x1) (h6 : W (Proc.devRef .tc main_v6) = val_main_v6 (F := Ideal) x1)
    (h7 : W (Proc.devRef .tc main_v7) = val_main_v7 (F := Ideal) x0 x2) (h30 : W (Proc.devRef .tc main_v30) = val_main_v30 (F := Ideal) x1)
    (ha3 : W (Proc.devRef .tc main_arg3) = x3) (ha4 : W (Proc.devRef .tc main_arg4) = x4) :
    after layer1Stage W (Proc.devRef .tc main_v48) = val_main_v48 (F := Ideal) x0 x1 x2 x3 x4 := by
  read_stage; simp only [h3, h6, h7, h30, ha3, ha4]; rfl
theorem layer1_keeps_v3 : after layer1Stage W (Proc.devRef .tc main_v3) = W (Proc.devRef .tc main_v3) := by stage_keeps
theorem layer1_keeps_v6 : after layer1Stage W (Proc.devRef .tc main_v6) = W (Proc.devRef .tc main_v6) := by stage_keeps
theorem layer1_keeps_arg5 : after layer1Stage W (Proc.devRef .tc main_arg5) = W (Proc.devRef .tc main_arg5) := by stage_keeps

/-! ## The third stage -/

set_option maxHeartbeats 4000000 in
theorem edge_weights2 (x1 : (⟨S2x1600000, .i32⟩ : BufTy).Contents (Elt Ideal))
    (h3 : W (Proc.devRef .tc main_v3) = val_main_v3 (F := Ideal) x1) (h6 : W (Proc.devRef .tc main_v6) = val_main_v6 (F := Ideal) x1) :
    after edgeStage2 W (Proc.devRef .tc main_v71) = val_main_v71 (F := Ideal) x1 := by
  read_stage; simp only [h3, h6]; rfl
theorem edge2_keeps_v3 : after edgeStage2 W (Proc.devRef .tc main_v3) = W (Proc.devRef .tc main_v3) := by stage_keeps
theorem edge2_keeps_v6 : after edgeStage2 W (Proc.devRef .tc main_v6) = W (Proc.devRef .tc main_v6) := by stage_keeps
theorem edge2_keeps_v48 : after edgeStage2 W (Proc.devRef .tc main_v48) = W (Proc.devRef .tc main_v48) := by stage_keeps
theorem edge2_keeps_arg5 : after edgeStage2 W (Proc.devRef .tc main_arg5) = W (Proc.devRef .tc main_arg5) := by stage_keeps

/-! ## The fourth stage -/

set_option maxHeartbeats 4000000 in
theorem layer2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h3 : W (Proc.devRef .tc main_v3) = val_main_v3 (F := Ideal) x1) (h6 : W (Proc.devRef .tc main_v6) = val_main_v6 (F := Ideal) x1)
    (h48 : W (Proc.devRef .tc main_v48) = val_main_v48 (F := Ideal) x0 x1 x2 x3 x4) (h71 : W (Proc.devRef .tc main_v71) = val_main_v71 (F := Ideal) x1)
    (ha5 : W (Proc.devRef .tc main_arg5) = x5) :
    after layer2Stage W (Proc.devRef .tc main_v88) = val_main_v88 (F := Ideal) x0 x1 x2 x3 x4 x5 := by
  read_stage; simp only [h3, h6, h48, h71, ha5]; rfl

/-! ## The four stages chained -/

/-- From contents holding the six arguments, the whole line leaves the result buffer at the last stage's term. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h0 : W (Proc.devRef .tc main_arg0) = x0) (h1 : W (Proc.devRef .tc main_arg1) = x1) (h2 : W (Proc.devRef .tc main_arg2) = x2)
    (h3 : W (Proc.devRef .tc main_arg3) = x3) (h4 : W (Proc.devRef .tc main_arg4) = x4) (h5 : W (Proc.devRef .tc main_arg5) = x5) :
    after (opsPlain (F := Ideal)) W (Proc.devRef .tc main_v88) = val_main_v88 (F := Ideal) x0 x1 x2 x3 x4 x5 := by
  rw [ops_split, after_append, after_append, after_append]
  -- after the first stage
  have s3 : after edgeStage W (Proc.devRef .tc main_v3) = val_main_v3 (F := Ideal) x1 := (edge_sources W).trans (by rw [h1])
  have s6 : after edgeStage W (Proc.devRef .tc main_v6) = val_main_v6 (F := Ideal) x1 := (edge_destinations W).trans (by rw [h1])
  have s7 : after edgeStage W (Proc.devRef .tc main_v7) = val_main_v7 (F := Ideal) x0 x2 := (edge_product W).trans (by rw [h0, h2])
  have s30 : after edgeStage W (Proc.devRef .tc main_v30) = val_main_v30 (F := Ideal) x1 := (edge_weights W).trans (by rw [h1])
  have a3 : after edgeStage W (Proc.devRef .tc main_arg3) = x3 := (edge_keeps_arg3 W).trans h3
  have a4 : after edgeStage W (Proc.devRef .tc main_arg4) = x4 := (edge_keeps_arg4 W).trans h4
  have a5 : after edgeStage W (Proc.devRef .tc main_arg5) = x5 := (edge_keeps_arg5 W).trans h5
  -- after the second
  have t48 := layer1 (after edgeStage W) x0 x1 x2 x3 x4 s3 s6 s7 s30 a3 a4
  have t3 := (layer1_keeps_v3 (after edgeStage W)).trans s3
  have t6 := (layer1_keeps_v6 (after edgeStage W)).trans s6
  have t5 := (layer1_keeps_arg5 (after edgeStage W)).trans a5
  -- after the third
  have u71 := edge_weights2 (after layer1Stage (after edgeStage W)) x1 t3 t6
  have u3 := (edge2_keeps_v3 (after layer1Stage (after edgeStage W))).trans t3
  have u6 := (edge2_keeps_v6 (after layer1Stage (after edgeStage W))).trans t6
  have u48 := (edge2_keeps_v48 (after layer1Stage (after edgeStage W))).trans t48
  have u5 := (edge2_keeps_arg5 (after layer1Stage (after edgeStage W))).trans t5
  exact layer2 (after edgeStage2 (after layer1Stage (after edgeStage W))) x0 x1 x2 x3 x4 x5 u3 u6 u48 u71 u5

end

/-! ## The run -/

set_option maxRecDepth 8192 in
set_option maxHeartbeats 52400000 in
/-- On every device, from any memory with zero counters: every weakly fair execution of @main terminates with the result
    at the last stage's term of the six argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88)
        = val_main_v88 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_eq (launchContents m c) _ _ _ _ _ _ rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => opsPlain) (fun c => (main_eq c).trans (by rw [ops_eq]))
      (fun _ => by rw [← ops_eq]; exact ops_sub) m ρ)

end Cert.ReferenceIdeal.Staged

end
-- ==== Proof.lean ====
/-
  A two-layer graph convolution over 100000 nodes: per layer a dense product (x·W₁, then h·W₂), a symmetric-normalized
  aggregation over the edges with self loops, and a bias; relu between the layers and a row-wise log-softmax at the end.
  The kernel program computes the two products, the relu stage and the log-softmax stage in four pallas_calls, each over
  25 tiles of 4000 rows, and leaves the edge bookkeeping to the same host operations the reference uses.

  At the exact values the two programs return the same array, entry by entry:
  • the casts to bf16 in front of the matrix unit are the identity and the unit accumulates into zero, so a tile's entry
    is Σ_k lhs(r, k)·rhs(k, c) — the host product's entry at the tile's row, an entry depending on one row only;
  • relu (agg + b₁) is entrywise; the reference reaches the bias through two broadcasts where the kernel reads a one-row
    matrix;
  • the log-softmax of a row depends on that row only, and both sides compute it as (z - m) - log Σ exp (z - m) with m
    the row's maximum from -∞ — the reference takes the maximum with -∞ once more, which changes nothing, and sums from 0;
  • the host stretches between the calls are the reference's own operations on the same values.
  No step uses finiteness of the inputs: no term is moved across a sum, only the same sums and folds are read on both
  sides, so the precondition is not opened.

  The frames of the two kernel programs are the generated ones; the reference has no kernel, and its frame is its run with
  the result dropped. The idealization rewrote no operation, so there is nothing to preserve.
-/
import proofs.«118945_j72206990181016_1_alg».proof.Defs
import proofs.«118945_j72206990181016_1_alg».proof.Proof.Gen.Kernel
import proofs.«118945_j72206990181016_1_alg».proof.Proof.Gen.Kernel.Frame
import proofs.«118945_j72206990181016_1_alg».proof.Proof.Gen.KernelIdeal
import proofs.«118945_j72206990181016_1_alg».proof.Proof.Gen.KernelIdeal.Frame
import proofs.«118945_j72206990181016_1_alg».proof.Proof.Gen.ReferenceIdeal
import proofs.«118945_j72206990181016_1_alg».proof.Proof.Gen.Pre_finite_inputs
import proofs.«118945_j72206990181016_1_alg».proof.Proof.Assembly
import proofs.«118945_j72206990181016_1_alg».proof.Proof.ReferenceRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Staged.run m ρ)

theorem preserves : Cert.preserves_Kernel_KernelIdeal := trivial

/-- From memories agreeing on the six arguments both programs end with the reference's last stage of those arguments in
    their result buffer. -/
theorem algebraic : Cert.algebraic_KernelIdeal_ReferenceIdeal := by
  intro m ρ m' ρ' _ hagree
  refine ⟨fun c => Cert.ReferenceIdeal.ReadP.val_main_v88 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Staged.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
